-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S2048x1024 : Shape := ⟨2, ![2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 27
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x4096, .f32⟩
  | .hbm, ⟨16, _⟩ => ⟨S1024x4096, .bf16⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S1024x4096, .bf16⟩
  | .hbm, ⟨23, _⟩ => ⟨S4096, .f32⟩
  | .hbm, ⟨24, _⟩ => ⟨S1x4096, .f32⟩
  | .hbm, ⟨25, _⟩ => ⟨S16384x1024, .f32⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x1024_S1024x1024_0_0 : S2048x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S2048x1024_S1024x1024_1024_0 : S2048x1024.Slices ![1024, 0] S1024x1024
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S1024 : Shape := ⟨1, ![1024]⟩
abbrev S16384x2048 : Shape := ⟨2, ![16384, 2048]⟩
abbrev S2048x4096 : Shape := ⟨2, ![2048, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S16384x2048, .f32⟩
  | .hbm, ⟨12, _⟩ => ⟨S2048x4096, .f32⟩
  | .hbm, ⟨13, _⟩ => ⟨S4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.FrameBits.lean ====
/- The frame of `@main`: the program runs to completion on every core and leaves its eleven argument arrays as it
   found them. `@main` is fourteen host operations (slices, concatenations, two roundings to bf16, one broadcast), each
   writing a fresh array of its own, followed by one pipelined region over a grid of 64 points. The region stages
   eight windows: three inputs in blocks of 256 rows (one block per point), the two weight matrices and the bias row
   (one block each, brought in once, at the first point), and two outputs in blocks of 256 rows, written back at every
   point. The body at a point reads the six input blocks and overwrites each output block whole.
   Everything here holds at any float instance `F`. -/
import proofs.«104022_j63737314673186_1_alg».proof.Proof.Gen.Kernel.Launch
import proofs.«104022_j63737314673186_1_alg».proof.Proof.Gen.Kernel.Skeleton
import proofs.«104022_j63737314673186_1_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch contents `m` after the fourteen host operations. -/
abbrev V (c : Dev nD) (b : Ref sig .tc) : Buf (Elt F) ((c : Thread nD τ).loc b) :=
  StableHlo.after (List.flatten [hostOps0]) (fun b => m (c, b)) b

/-- No host operation allocates a buffer of its own. -/
theorem hostOps0_fresh : (hostOps0 : List (HloOp τ sig (Elt F))).Forall fun op => op.fresh = ∅ := by
  simp only [List.Forall]; repeat' constructor

/-- `@main` is its host operations, in order, then the region: the region is entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the block of rows of the first input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the block of rows of the second input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the block of rows of the third input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the first weight matrix, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (the second weight matrix, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (the bias row, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run of the region's proof data: the first three arguments are the arrays of the input windows 0, 1, 2,
    and an input window's array is never written back; the other eight arguments are staged by no window, so the region
    leaves them as it found them; and no host operation before the region writes any of the eleven. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole of a [256,1024] block, -/
abbrev rX : Rect S256x1024 := Rect.unit (s := S256x1024) ![0, 0] S256x1024.size inb_S256x1024_S256x1024_0_0
/-- of a [1024,4096] weight matrix, -/
abbrev rW : Rect S1024x4096 := Rect.unit (s := S1024x4096) ![0, 0] S1024x4096.size inb_S1024x4096_S1024x4096_0_0
/-- and of the [1,4096] bias row. -/
abbrev rB : Rect S1x4096 := Rect.unit (s := S1x4096) ![0, 0] S1x4096.size inb_S1x4096_S1x4096_0_0

/-! ## What the body leaves in each output window's buffer -/

/-- Window 6's staging buffer after the body, from the six input windows' blocks `x0 … x5` (in window order): its one
    store, of the whole block. The stored value reads windows 0, 1, 3, 4, 5, 2 in that order of roles. -/
def out0_6 (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- Window 7's staging buffer after the body, likewise: its one store, of the whole block. -/
def out0_7 (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- The one store into window 6's buffer covers it. -/
theorem cover0_6 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-- The one store into window 7's buffer covers it. -/
theorem cover0_7 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging memrefs, the six inputs' at read contents `x0 … x5` and the two outputs' at anything,
    runs to the continuation holding the inputs' as they were and each output's at `out0_6`, `out0_7` of the inputs'.
    The body also reads each output buffer before it stores into it; the value read is not used, and the store
    overwrites the whole buffer. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the one pipeline on core `c`: the arrays as the region finds them (`V`); after the body at
    point `t` each input's buffer at its block and each output's at `out0_6`, `out0_7` of the six input blocks; the
    invariant: the core's other scoped buffers and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projection, never unfolding `V`). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of `@main` on
    the TensorCores terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: `@main` terminates and its eleven argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.FrameIdeal.lean ====
/- The frame of `@main`: the program runs to completion on every core and leaves its eleven argument arrays as it
   found them. `@main` is fourteen host operations (slices, concatenations, two roundings to bf16, one broadcast), each
   writing a fresh array of its own, followed by one pipelined region over a grid of 64 points. The region stages
   eight windows: three inputs in blocks of 256 rows (one block per point), the two weight matrices and the bias row
   (one block each, brought in once, at the first point), and two outputs in blocks of 256 rows, written back at every
   point. The body at a point reads the six input blocks and overwrites each output block whole.
   Everything here holds at any float instance `F`. -/
import proofs.«104022_j63737314673186_1_alg».proof.Proof.Gen.KernelIdeal.Launch
import proofs.«104022_j63737314673186_1_alg».proof.Proof.Gen.KernelIdeal.Skeleton
import proofs.«104022_j63737314673186_1_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: the launch contents `m` after the fourteen host operations. -/
abbrev V (c : Dev nD) (b : Ref sig .tc) : Buf (Elt F) ((c : Thread nD τ).loc b) :=
  StableHlo.after (List.flatten [hostOps0]) (fun b => m (c, b)) b

/-- No host operation allocates a buffer of its own. -/
theorem hostOps0_fresh : (hostOps0 : List (HloOp τ sig (Elt F))).Forall fun op => op.fresh = ∅ := by
  simp only [List.Forall]; repeat' constructor

/-- `@main` is its host operations, in order, then the region: the region is entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the block of rows of the first input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the block of rows of the second input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the block of rows of the third input the point works on): its current staging buffer holds its block at every point,
    whether the block was fetched at that point or at an earlier one — for any proof data whose array is `V`'s
    (`hA`) and whose body leaves the block in place (`hafter`). A window fetched at the first point only keeps the
    same block index at every later point, so the block it still holds is the block of that point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the first weight matrix, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (the second weight matrix, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (the bias row, whole): its current staging buffer holds its block at every point,
    whether the block was fetched at that point or at an earlier one — for any proof data whose array is `V`'s
    (`hA`) and whose body leaves the block in place (`hafter`). A window fetched at the first point only keeps the
    same block index at every later point, so the block it still holds is the block of that point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run of the region's proof data: the first three arguments are the arrays of the input windows 0, 1, 2,
    and an input window's array is never written back; the other eight arguments are staged by no window, so the region
    leaves them as it found them; and no host operation before the region writes any of the eleven. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole of a [256,1024] block, -/
abbrev rX : Rect S256x1024 := Rect.unit (s := S256x1024) ![0, 0] S256x1024.size inb_S256x1024_S256x1024_0_0
/-- of a [1024,4096] weight matrix, -/
abbrev rW : Rect S1024x4096 := Rect.unit (s := S1024x4096) ![0, 0] S1024x4096.size inb_S1024x4096_S1024x4096_0_0
/-- and of the [1,4096] bias row. -/
abbrev rB : Rect S1x4096 := Rect.unit (s := S1x4096) ![0, 0] S1x4096.size inb_S1x4096_S1x4096_0_0

/-! ## What the body leaves in each output window's buffer -/

/-- Window 6's staging buffer after the body, from the six input windows' blocks `x0 … x5` (in window order): its one
    store, of the whole block. The stored value reads windows 0, 1, 3, 4, 5, 2 in that order of roles. -/
def out0_6 (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rW) (View.ld x4 rW) (View.ld x5 rB) (View.ld x2 rX)⟩]

/-- Window 7's staging buffer after the body, likewise: its one store, of the whole block. -/
def out0_7 (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rW) (View.ld x4 rW) (View.ld x5 rB) (View.ld x2 rX)⟩]

/-- The one store into window 6's buffer covers it. -/
theorem cover0_6 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-- The one store into window 7's buffer covers it. -/
theorem cover0_7 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging memrefs, the six inputs' at read contents `x0 … x5` and the two outputs' at anything,
    runs to the continuation holding the inputs' as they were and each output's at `out0_6`, `out0_7` of the inputs'.
    The body also reads each output buffer before it stores into it; the value read is not used, and the store
    overwrites the whole buffer. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the one pipeline on core `c`: the arrays as the region finds them (`V`); after the body at
    point `t` each input's buffer at its block and each output's at `out0_6`, `out0_7` of the six input blocks; the
    invariant: the core's other scoped buffers and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projection, never unfolding `V`). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks (`before0_W`), so `sound_kernel` applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of `@main` on
    the TensorCores terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: `@main` terminates and its eleven argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.Spec.lean ====
/-
  The single-step LSTM cell as one function of its argument arrays, free of any program.

  For a batch row p and a hidden unit q, a gate with weight matrix W : [2048, 1024] and bias b : [1024] has the
  pre-activation
      pre x a W b p q = (sum over k < 1024 of x(p,k) * W(k,q)) + (sum over k < 1024 of a(p,k) * W(1024 + k, q)) + b(q):
  the input x meets the upper 1024 rows of W, the previous hidden state a the lower 1024 rows. The new cell state is
      newC = sigmoid(pre_u) * tanh(pre_c) + sigmoid(pre_f) * c
  and the new hidden state is  newA = sigmoid(pre_o) * tanh(newC), on the extended reals.

  Also here, because both programs meet them: a sum over 2048 positions is the sum over the first 1024 plus the sum
  over the last 1024 (associativity and commutativity of the sum only: nothing is assumed finite), and what the
  side-by-side joins of four arrays (along the columns, along a vector) and of two arrays hold at an index.
-/
import Idealize.ShloMosaic.PureOps.Ideal
import Idealize.ShloMosaic.Lib.ValueIdx
import Idealize.ShloMosaic.Lib.Pipeline.Value

noncomputable section

open scoped BigOperators

namespace Cert.Lstm

open Idealize.ShloMosaic Idealize.ShloMosaic.ValueIdx

/-- Row k of the upper half of a [2048, ·] weight matrix: the rows the input meets. -/
def low (k : Fin 1024) : Fin 2048 := ⟨k.val, by omega⟩
/-- Row 1024 + k: the rows the previous hidden state meets. -/
def high (k : Fin 1024) : Fin 2048 := ⟨1024 + k.val, by omega⟩

@[simp] theorem low_val (k : Fin 1024) : (low k).val = k.val := rfl
@[simp] theorem high_val (k : Fin 1024) : (high k).val = 1024 + k.val := rfl

/-- The pre-activation of one gate at batch row p and hidden unit q. -/
def pre (x a : (⟨2, ![16384, 1024]⟩ : Shape).Idx → EReal) (W : (⟨2, ![2048, 1024]⟩ : Shape).Idx → EReal)
    (b : (⟨1, ![1024]⟩ : Shape).Idx → EReal) (p : Fin 16384) (q : Fin 1024) : EReal :=
  ((∑ k : Fin 1024, x (ix2 p k) * W (ix2 (low k) q)) + ∑ k : Fin 1024, a (ix2 p k) * W (ix2 (high k) q)) + b (ix1 q)

/-- The new cell state. -/
def newC (x a c : (⟨2, ![16384, 1024]⟩ : Shape).Idx → EReal)
    (Wf : (⟨2, ![2048, 1024]⟩ : Shape).Idx → EReal) (bf : (⟨1, ![1024]⟩ : Shape).Idx → EReal)
    (Wu : (⟨2, ![2048, 1024]⟩ : Shape).Idx → EReal) (bu : (⟨1, ![1024]⟩ : Shape).Idx → EReal)
    (Wc : (⟨2, ![2048, 1024]⟩ : Shape).Idx → EReal) (bc : (⟨1, ![1024]⟩ : Shape).Idx → EReal)
    (p : Fin 16384) (q : Fin 1024) : EReal :=
  Ideal.logistic (pre x a Wu bu p q) * Ideal.tanh (pre x a Wc bc p q) + Ideal.logistic (pre x a Wf bf p q) * c (ix2 p q)

/-- The new hidden state. -/
def newA (x a c : (⟨2, ![16384, 1024]⟩ : Shape).Idx → EReal)
    (Wf : (⟨2, ![2048, 1024]⟩ : Shape).Idx → EReal) (bf : (⟨1, ![1024]⟩ : Shape).Idx → EReal)
    (Wu : (⟨2, ![2048, 1024]⟩ : Shape).Idx → EReal) (bu : (⟨1, ![1024]⟩ : Shape).Idx → EReal)
    (Wo : (⟨2, ![2048, 1024]⟩ : Shape).Idx → EReal) (bo : (⟨1, ![1024]⟩ : Shape).Idx → EReal)
    (Wc : (⟨2, ![2048, 1024]⟩ : Shape).Idx → EReal) (bc : (⟨1, ![1024]⟩ : Shape).Idx → EReal)
    (p : Fin 16384) (q : Fin 1024) : EReal :=
  Ideal.logistic (pre x a Wo bo p q) * Ideal.tanh (newC x a c Wf bf Wu bu Wc bc p q)

/-- A sum over 2048 positions is the sum over the first 1024 plus the sum over the last 1024. -/
theorem sum_halves (f : Fin 2048 → EReal) :
    ∑ k : Fin 2048, f k = (∑ k : Fin 1024, f (low k)) + ∑ k : Fin 1024, f (high k) := by
  have h := Fin.sum_univ_add (a := 1024) (b := 1024) (fun k : Fin (1024 + 1024) => f k)
  refine h.trans ?_
  congr 1

end Cert.Lstm

end
-- ==== Proof.Joins.lean ====
/-
  Arrays set side by side, read at an entry.

  Four arrays of 1024 columns each set side by side along the columns make an array of 4096 columns; its column
  g * 1024 + q (g < 4, q < 1024) is column q of the g-th array, on the same row. Four vectors of 1024 entries joined end
  to end likewise. Nothing here depends on the number of rows or on what the entries are.
-/
import Idealize.ShloMosaic.Lib.ValueIdx
import Idealize.ShloMosaic.Lib.Pipeline.Value

noncomputable section

namespace Cert.Lstm

open Idealize.ShloMosaic Idealize.ShloMosaic.ValueIdx

variable {α : Type}

/-- The column of the 4096 that holds unit q of the g-th block of 1024. -/
def col (g : Fin 4) (q : Fin 1024) : Fin 4096 := ⟨g.val * 1024 + q.val, by have := g.isLt; have := q.isLt; omega⟩

@[simp] theorem col_val (g : Fin 4) (q : Fin 1024) : (col g q).val = g.val * 1024 + q.val := rfl

/-- Four [R, 1024] arrays side by side: row k, column g * 1024 + q is the g-th array's entry (k, q). -/
theorem cat4_apply {R : Nat} (w : Fin 4 → (⟨2, ![R, 1024]⟩ : Shape).Idx → α)
    (h : Shape.Concatenates [(⟨2, ![R, 1024]⟩ : Shape), ⟨2, ![R, 1024]⟩, ⟨2, ![R, 1024]⟩, ⟨2, ![R, 1024]⟩] ⟨2, ![R, 4096]⟩ 1)
    (k : Fin R) (g : Fin 4) (q : Fin 1024) :
    concatenate (⟨2, ![R, 4096]⟩ : Shape) 1 [⟨⟨2, ![R, 1024]⟩, w 0⟩, ⟨⟨2, ![R, 1024]⟩, w 1⟩, ⟨⟨2, ![R, 1024]⟩, w 2⟩, ⟨⟨2, ![R, 1024]⟩, w 3⟩] h
        (ix2 k (col g q)) = w g (ix2 k q) := by
  have hi : ∀ b : Fin (⟨2, ![R, 1024]⟩ : Shape).rank, b.cast (rfl : (2 : Nat) = 2) ≠ (1 : Fin 2) →
      ((ix2 k q : (⟨2, ![R, 1024]⟩ : Shape).Idx) b).val = ((ix2 k (col g q) : (⟨2, ![R, 4096]⟩ : Shape).Idx) (b.cast rfl)).val := fun b hb => by
    match b with
    | ⟨0, _⟩ => rfl
    | ⟨1, _⟩ => exact absurd rfl hb
  fin_cases g
  · exact concatenate_apply_piece (t := ⟨2, ![R, 4096]⟩) 1 [⟨⟨2, ![R, 1024]⟩, w 0⟩, ⟨⟨2, ![R, 1024]⟩, w 1⟩, ⟨⟨2, ![R, 1024]⟩, w 2⟩, ⟨⟨2, ![R, 1024]⟩, w 3⟩] h _ 0 (by simp) ⟨2, ![R, 1024]⟩ (w 0) rfl rfl 0 rfl (ix2 k q) hi (by show 0 + q.val = 0 * 1024 + q.val; omega)
  · exact concatenate_apply_piece (t := ⟨2, ![R, 4096]⟩) 1 [⟨⟨2, ![R, 1024]⟩, w 0⟩, ⟨⟨2, ![R, 1024]⟩, w 1⟩, ⟨⟨2, ![R, 1024]⟩, w 2⟩, ⟨⟨2, ![R, 1024]⟩, w 3⟩] h _ 1 (by simp) ⟨2, ![R, 1024]⟩ (w 1) rfl rfl 1024 rfl (ix2 k q) hi (by show 1024 + q.val = 1 * 1024 + q.val; omega)
  · exact concatenate_apply_piece (t := ⟨2, ![R, 4096]⟩) 1 [⟨⟨2, ![R, 1024]⟩, w 0⟩, ⟨⟨2, ![R, 1024]⟩, w 1⟩, ⟨⟨2, ![R, 1024]⟩, w 2⟩, ⟨⟨2, ![R, 1024]⟩, w 3⟩] h _ 2 (by simp) ⟨2, ![R, 1024]⟩ (w 2) rfl rfl 2048 rfl (ix2 k q) hi (by show 2048 + q.val = 2 * 1024 + q.val; omega)
  · exact concatenate_apply_piece (t := ⟨2, ![R, 4096]⟩) 1 [⟨⟨2, ![R, 1024]⟩, w 0⟩, ⟨⟨2, ![R, 1024]⟩, w 1⟩, ⟨⟨2, ![R, 1024]⟩, w 2⟩, ⟨⟨2, ![R, 1024]⟩, w 3⟩] h _ 3 (by simp) ⟨2, ![R, 1024]⟩ (w 3) rfl rfl 3072 rfl (ix2 k q) hi (by show 3072 + q.val = 3 * 1024 + q.val; omega)

/-- Four [1024] vectors end to end: entry g * 1024 + q is the g-th vector's entry q. -/
theorem catB_apply (b : Fin 4 → (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (g : Fin 4) (q : Fin 1024) :
    concatenate (⟨1, ![4096]⟩ : Shape) 0 [⟨⟨1, ![1024]⟩, b 0⟩, ⟨⟨1, ![1024]⟩, b 1⟩, ⟨⟨1, ![1024]⟩, b 2⟩, ⟨⟨1, ![1024]⟩, b 3⟩] h
        (ix1 (col g q)) = b g (ix1 q) := by
  have hi : ∀ a : Fin (⟨1, ![1024]⟩ : Shape).rank, a.cast (rfl : (1 : Nat) = 1) ≠ (0 : Fin 1) →
      ((ix1 q : (⟨1, ![1024]⟩ : Shape).Idx) a).val = ((ix1 (col g q) : (⟨1, ![4096]⟩ : Shape).Idx) (a.cast rfl)).val := fun a ha => by
    match a with
    | ⟨0, _⟩ => exact absurd rfl ha
  fin_cases g
  · exact concatenate_apply_piece (t := ⟨1, ![4096]⟩) 0 [⟨⟨1, ![1024]⟩, b 0⟩, ⟨⟨1, ![1024]⟩, b 1⟩, ⟨⟨1, ![1024]⟩, b 2⟩, ⟨⟨1, ![1024]⟩, b 3⟩] h _ 0 (by simp) ⟨1, ![1024]⟩ (b 0) rfl rfl 0 rfl (ix1 q) hi (by show 0 + q.val = 0 * 1024 + q.val; omega)
  · exact concatenate_apply_piece (t := ⟨1, ![4096]⟩) 0 [⟨⟨1, ![1024]⟩, b 0⟩, ⟨⟨1, ![1024]⟩, b 1⟩, ⟨⟨1, ![1024]⟩, b 2⟩, ⟨⟨1, ![1024]⟩, b 3⟩] h _ 1 (by simp) ⟨1, ![1024]⟩ (b 1) rfl rfl 1024 rfl (ix1 q) hi (by show 1024 + q.val = 1 * 1024 + q.val; omega)
  · exact concatenate_apply_piece (t := ⟨1, ![4096]⟩) 0 [⟨⟨1, ![1024]⟩, b 0⟩, ⟨⟨1, ![1024]⟩, b 1⟩, ⟨⟨1, ![1024]⟩, b 2⟩, ⟨⟨1, ![1024]⟩, b 3⟩] h _ 2 (by simp) ⟨1, ![1024]⟩ (b 2) rfl rfl 2048 rfl (ix1 q) hi (by show 2048 + q.val = 2 * 1024 + q.val; omega)
  · exact concatenate_apply_piece (t := ⟨1, ![4096]⟩) 0 [⟨⟨1, ![1024]⟩, b 0⟩, ⟨⟨1, ![1024]⟩, b 1⟩, ⟨⟨1, ![1024]⟩, b 2⟩, ⟨⟨1, ![1024]⟩, b 3⟩] h _ 3 (by simp) ⟨1, ![1024]⟩ (b 3) rfl rfl 3072 rfl (ix1 q) hi (by show 3072 + q.val = 3 * 1024 + q.val; omega)

end Cert.Lstm

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.Payload.lean ====
/-
  What the kernel body stores, read at an entry of its [256, 1024] output blocks, over the extended reals.

  From the blocks it loads — x0, a0 : [256, 1024] (rows of the input and of the previous hidden state), wt, wb :
  [1024, 4096] (the upper and lower halves of the four weight matrices side by side), br : [1, 4096] (the four biases
  end to end) and c0 : [256, 1024] (rows of the previous cell state) — the body forms, for a row p of the block and a
  column j of the 4096,
      zblk p j = (sum over k < 1024 of x0(p,k) * wt(k,j)) + (sum over k < 1024 of a0(p,k) * wb(k,j)) + br(0,j)
  (each matrix product starts from a zero accumulator, and narrowing a float's format is the identity on the extended
  reals), and stores, at (p, q),
      cell   = sigmoid(zblk p (1024 + q)) * tanh(zblk p (3072 + q)) + sigmoid(zblk p q) * c0(p,q)
      hidden = sigmoid(zblk p (2048 + q)) * tanh(cell).
-/
import proofs.«104022_j63737314673186_1_alg».proof.Proof.Gen.KernelIdeal.Skeleton
import proofs.«104022_j63737314673186_1_alg».proof.Proof.LibPlainDot
import proofs.«104022_j63737314673186_1_alg».proof.Proof.Joins
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.Lstm (col)

/-- The body's matrix products contract the left operand's columns with the right operand's rows. -/
theorem reads : Cert.Lib.PlainDot.Reads (R := 256) (K := 1024) (C := 4096) dot_S256x1024_S1024x4096_S256x4096_1_0_0_1_n_n where
  rank := rfl
  size := rfl
  lhs0 := fun i q => by
    unfold DotDims.lhsIdx
    rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
    rfl
  lhs1 := fun i q => dot_S256x1024_S1024x4096_S256x4096_1_0_0_1_n_n.lhsIdx_val_of_single rfl i q
  rhs0 := fun i q => dot_S256x1024_S1024x4096_S256x4096_1_0_0_1_n_n.rhsIdx_val_of_single rfl i q
  rhs1 := fun i q => by
    unfold DotDims.rhsIdx
    rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
    rfl

/-- The four gates' pre-activations over a block of rows: column j of the 4096 at row p of the block. -/
def zblk (x0 a0 : FVec Ideal S256x1024 .f32) (wt wb : FVec Ideal S1024x4096 .bf16) (br : FVec Ideal S1x4096 .f32)
    (p : Fin 256) (j : Fin 4096) : EReal :=
  ((∑ k : Fin 1024, x0 (ix2 p k) * wt (ix2 k j)) + ∑ k : Fin 1024, a0 (ix2 p k) * wb (ix2 k j)) + br (ix2 (0 : Fin 1) j)

/-- The body's [256, 4096] intermediate is the pre-activations. -/
theorem pay1_apply (x0 a0 : FVec Ideal S256x1024 .f32) (wt wb : FVec Ideal S1024x4096 .bf16) (br : FVec Ideal S1x4096 .f32)
    (p : Fin 256) (j : Fin 4096) :
    k0_pay1 (F := Ideal) x0 a0 wt wb br (ix2 p j) = zblk x0 a0 wt wb br p j := by
  unfold k0_pay1 zblk
  rw [shapeCast_self wt, shapeCast_self wb, shapeCast_self br]
  refine congrArg₂ (· + ·) (congrArg₂ (· + ·) ?_ ?_) ?_
  · exact Cert.Lib.PlainDot.matmul_zero_apply reads none (truncf .bf16 x0 Facts₀.bitsLt_bf16_f32) wt p j
  · exact Cert.Lib.PlainDot.matmul_zero_apply reads none (truncf .bf16 a0 Facts₀.bitsLt_bf16_f32) wb p j
  · exact broadcastTo_1b_ab_apply br Facts₀.broadcasts_S1x4096_S256x4096 p j

/-- The cell state the body stores, at row p of the block and unit q. -/
def cellBlk (x0 a0 : FVec Ideal S256x1024 .f32) (wt wb : FVec Ideal S1024x4096 .bf16) (br : FVec Ideal S1x4096 .f32)
    (c0 : FVec Ideal S256x1024 .f32) (p : Fin 256) (q : Fin 1024) : EReal :=
  Ideal.logistic (zblk x0 a0 wt wb br p (col 1 q)) * Ideal.tanh (zblk x0 a0 wt wb br p (col 3 q))
    + Ideal.logistic (zblk x0 a0 wt wb br p (col 0 q)) * c0 (ix2 p q)

/-- The hidden state the body stores. -/
def hiddenBlk (x0 a0 : FVec Ideal S256x1024 .f32) (wt wb : FVec Ideal S1024x4096 .bf16) (br : FVec Ideal S1x4096 .f32)
    (c0 : FVec Ideal S256x1024 .f32) (p : Fin 256) (q : Fin 1024) : EReal :=
  Ideal.logistic (zblk x0 a0 wt wb br p (col 2 q)) * Ideal.tanh (cellBlk x0 a0 wt wb br c0 p q)

/-- A slice of 1024 columns of the pre-activations from column o on, at (p, q): the entry at column o + q. -/
theorem slice_apply (Z : FVec Ideal S256x4096 .f32) (o : Nat) (h : S256x4096.Slices ![0, o] S256x1024)
    (p : Fin 256) (q : Fin 1024) (j : Fin 4096) (hj : j.val = o + q.val) :
    extractStridedSlice S256x1024 ![0, o] Z h (ix2 p q) = Z (ix2 p j) :=
  slice2_axis1_apply o Z h p q j hj

/-- The second stored value is the cell state. -/
theorem pay2_apply (x0 a0 : FVec Ideal S256x1024 .f32) (wt wb : FVec Ideal S1024x4096 .bf16) (br : FVec Ideal S1x4096 .f32)
    (c0 : FVec Ideal S256x1024 .f32) (p : Fin 256) (q : Fin 1024) :
    k0_pay2 (F := Ideal) x0 a0 wt wb br c0 (ix2 p q) = cellBlk x0 a0 wt wb br c0 p q := by
  unfold k0_pay2 cellBlk
  show Ideal.logistic (extractStridedSlice S256x1024 ![0, 1024] (k0_pay1 (F := Ideal) x0 a0 wt wb br) _ (ix2 p q))
        * Ideal.tanh (extractStridedSlice S256x1024 ![0, 3072] (k0_pay1 (F := Ideal) x0 a0 wt wb br) _ (ix2 p q))
      + Ideal.logistic (extractStridedSlice S256x1024 ![0, 0] (k0_pay1 (F := Ideal) x0 a0 wt wb br) _ (ix2 p q)) * c0 (ix2 p q) = _
  rw [slice_apply _ 1024 Facts₀.slices_S256x4096_o0_1024_S256x1024 p q (col 1 q) rfl,
    slice_apply _ 3072 Facts₀.slices_S256x4096_o0_3072_S256x1024 p q (col 3 q) rfl,
    slice_apply _ 0 Facts₀.slices_S256x4096_o0_0_S256x1024 p q (col 0 q) (by show 0 * 1024 + q.val = 0 + q.val; omega),
    pay1_apply, pay1_apply, pay1_apply]

/-- The first stored value is the hidden state. -/
theorem pay3_apply (x0 a0 : FVec Ideal S256x1024 .f32) (wt wb : FVec Ideal S1024x4096 .bf16) (br : FVec Ideal S1x4096 .f32)
    (c0 : FVec Ideal S256x1024 .f32) (p : Fin 256) (q : Fin 1024) :
    k0_pay3 (F := Ideal) x0 a0 wt wb br c0 (ix2 p q) = hiddenBlk x0 a0 wt wb br c0 p q := by
  unfold k0_pay3 hiddenBlk
  show Ideal.logistic (extractStridedSlice S256x1024 ![0, 2048] (k0_pay1 (F := Ideal) x0 a0 wt wb br) _ (ix2 p q))
        * Ideal.tanh (k0_pay2 (F := Ideal) x0 a0 wt wb br c0 (ix2 p q)) = _
  rw [slice_apply _ 2048 Facts₀.slices_S256x4096_o0_2048_S256x1024 p q (col 2 q) rfl, pay1_apply, pay2_apply]

end Cert.KernelIdeal.Payload

end
-- ==== Proof.HostPrefix.lean ====
/-
  What the host operations before the kernel launch leave in the three arrays the kernel reads besides its arguments:
  the upper halves of the four weight matrices set side by side along the columns (a [1024, 4096] array, narrowed to
  bf16), their lower halves likewise, and the four bias vectors joined end to end and laid out as one [1, 4096] row.
  Stated for ANY contents X of the buffers the operations start from, and any float instance.

  Then, on the extended reals, those three arrays read at an entry: column g * 1024 + q of the upper-halves array, at
  row k, is entry (k, q) of the g-th weight matrix; of the lower-halves array, entry (1024 + k, q); and entry
  g * 1024 + q of the bias row is entry q of the g-th bias (narrowing a float's format is the identity there).
-/
import proofs.«104022_j63737314673186_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal
import proofs.«104022_j63737314673186_1_alg».proof.Proof.Spec
import proofs.«104022_j63737314673186_1_alg».proof.Proof.Joins

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]

/-- Four [1024, 1024] arrays side by side along the columns. -/
def cat4 (w0 w1 w2 w3 : (⟨S1024x1024, .f32⟩ : BufTy).Contents (Elt F)) : (⟨S1024x4096, .f32⟩ : BufTy).Contents (Elt F) :=
  concatenate S1024x4096 1 [⟨S1024x1024, w0⟩, ⟨S1024x1024, w1⟩, ⟨S1024x1024, w2⟩, ⟨S1024x1024, w3⟩] Facts₀.concatenates_S1024x1024_S1024x1024_S1024x1024_S1024x1024_S1024x4096_d1

/-- Four [1024] vectors end to end. -/
def catB (b0 b1 b2 b3 : (⟨S1024, .f32⟩ : BufTy).Contents (Elt F)) : (⟨S4096, .f32⟩ : BufTy).Contents (Elt F) :=
  concatenate S4096 0 [⟨S1024, b0⟩, ⟨S1024, b1⟩, ⟨S1024, b2⟩, ⟨S1024, b3⟩] Facts₀.concatenates_S1024_S1024_S1024_S1024_S4096_d0

/-- Rows 0 … 1023 of a [2048, 1024] matrix. -/
def top (w : (⟨S2048x1024, .f32⟩ : BufTy).Contents (Elt F)) : (⟨S1024x1024, .f32⟩ : BufTy).Contents (Elt F) :=
  extractStridedSlice S1024x1024 ![0, 0] w Facts₀.slices_S2048x1024_S1024x1024_0_0
/-- Rows 1024 … 2047 of a [2048, 1024] matrix. -/
def bot (w : (⟨S2048x1024, .f32⟩ : BufTy).Contents (Elt F)) : (⟨S1024x1024, .f32⟩ : BufTy).Contents (Elt F) :=
  extractStridedSlice S1024x1024 ![1024, 0] w Facts₀.slices_S2048x1024_S1024x1024_1024_0

/-- The array the kernel's fourth window stages: the four upper halves side by side, narrowed to bf16. -/
theorem wtop_eq (X : Valuation τ sig (Elt F)) :
    StableHlo.after (hostOps0 (F := F)) X (Proc.devRef .tc main_v5)
      = (truncf .bf16 (cat4 (top (X (Proc.devRef .tc main_arg3))) (top (X (Proc.devRef .tc main_arg5)))
          (top (X (Proc.devRef .tc main_arg7))) (top (X (Proc.devRef .tc main_arg9)))) Facts₀.bitsLt_bf16_f32 : (⟨S1024x4096, .bf16⟩ : BufTy).Contents (Elt F)) := by
  after_results; rfl

/-- The array its fifth window stages: the four lower halves side by side, narrowed to bf16. -/
theorem wbot_eq (X : Valuation τ sig (Elt F)) :
    StableHlo.after (hostOps0 (F := F)) X (Proc.devRef .tc main_v11)
      = (truncf .bf16 (cat4 (bot (X (Proc.devRef .tc main_arg3))) (bot (X (Proc.devRef .tc main_arg5)))
          (bot (X (Proc.devRef .tc main_arg7))) (bot (X (Proc.devRef .tc main_arg9)))) Facts₀.bitsLt_bf16_f32 : (⟨S1024x4096, .bf16⟩ : BufTy).Contents (Elt F)) := by
  after_results; rfl

/-- The array its sixth window stages: the four biases end to end, as one row. -/
theorem bias_eq (X : Valuation τ sig (Elt F)) :
    StableHlo.after (hostOps0 (F := F)) X (Proc.devRef .tc main_v13)
      = (broadcastInDim S1x4096 ![1] Facts₀.bcast_S4096_S1x4096_1 (catB (X (Proc.devRef .tc main_arg4)) (X (Proc.devRef .tc main_arg6))
          (X (Proc.devRef .tc main_arg8)) (X (Proc.devRef .tc main_arg10))) : (⟨S1x4096, .f32⟩ : BufTy).Contents (Elt F)) := by
  after_results; rfl

/-! ## The three arrays at an entry, on the extended reals -/

section AtAnEntry

open Idealize.ShloMosaic.ValueIdx Cert.Lstm

/-- Row k of the upper half is row k of the matrix. -/
theorem top_apply (w : FVec Ideal S2048x1024 .f32) (k q : Fin 1024) : top (F := Ideal) w (ix2 k q) = w (ix2 (low k) q) :=
  slice2_axis0_apply 0 w Facts₀.slices_S2048x1024_S1024x1024_0_0 k q (low k) (by show k.val = 0 + k.val; omega)

/-- Row k of the lower half is row 1024 + k of the matrix. -/
theorem bot_apply (w : FVec Ideal S2048x1024 .f32) (k q : Fin 1024) : bot (F := Ideal) w (ix2 k q) = w (ix2 (high k) q) :=
  slice2_axis0_apply 1024 w Facts₀.slices_S2048x1024_S1024x1024_1024_0 k q (high k) rfl

/-- The upper halves side by side, narrowed: row k, column g * 1024 + q is the g-th matrix at (k, q). -/
theorem wtop_apply (w : Fin 4 → FVec Ideal S2048x1024 .f32) (k : Fin 1024) (g : Fin 4) (q : Fin 1024) :
    (truncf .bf16 (cat4 (F := Ideal) (top (w 0)) (top (w 1)) (top (w 2)) (top (w 3))) Facts₀.bitsLt_bf16_f32 : FVec Ideal S1024x4096 .bf16)
        (ix2 k (col g q)) = w g (ix2 (low k) q) := by
  show cat4 (F := Ideal) (top (w 0)) (top (w 1)) (top (w 2)) (top (w 3)) (ix2 k (col g q)) = _
  unfold cat4
  exact (cat4_apply (fun g => top (F := Ideal) (w g)) _ k g q).trans (top_apply (w g) k q)

/-- The lower halves side by side, narrowed: row k, column g * 1024 + q is the g-th matrix at (1024 + k, q). -/
theorem wbot_apply (w : Fin 4 → FVec Ideal S2048x1024 .f32) (k : Fin 1024) (g : Fin 4) (q : Fin 1024) :
    (truncf .bf16 (cat4 (F := Ideal) (bot (w 0)) (bot (w 1)) (bot (w 2)) (bot (w 3))) Facts₀.bitsLt_bf16_f32 : FVec Ideal S1024x4096 .bf16)
        (ix2 k (col g q)) = w g (ix2 (high k) q) := by
  show cat4 (F := Ideal) (bot (w 0)) (bot (w 1)) (bot (w 2)) (bot (w 3)) (ix2 k (col g q)) = _
  unfold cat4
  exact (cat4_apply (fun g => bot (F := Ideal) (w g)) _ k g q).trans (bot_apply (w g) k q)

/-- The biases end to end, as one row: entry g * 1024 + q of the row is entry q of the g-th bias. -/
theorem bias_apply (b : Fin 4 → FVec Ideal S1024 .f32) (g : Fin 4) (q : Fin 1024) :
    (broadcastInDim S1x4096 ![1] Facts₀.bcast_S4096_S1x4096_1 (catB (F := Ideal) (b 0) (b 1) (b 2) (b 3)) : FVec Ideal S1x4096 .f32)
        (ix2 (0 : Fin 1) (col g q)) = b g (ix1 q) := by
  refine (broadcastInDim_apply _ Facts₀.bcast_S4096_S1x4096_1 (catB (F := Ideal) (b 0) (b 1) (b 2) (b 3))
    (ix2 (0 : Fin 1) (col g q)) (ix1 (col g q)) (fun a => match a with
      | ⟨0, _⟩ => by show (col g q).val = if (4096 : Nat) = 1 then 0 else (col g q).val; rw [if_neg (by decide)])).trans ?_
  unfold catB
  exact catB_apply b _ g q

end AtAnEntry

end Cert.KernelIdeal.HostPrefix

end
-- ==== Proof.Bridge.lean ====
/-
  A block of rows of the kernel's arithmetic is the specification's row.

  The kernel works on a block of 256 rows at a time: x0, a0, c0 are the block's rows of x, a, c; wt and wb are the
  upper and lower 1024 rows of the four weight matrices set side by side (column g * 1024 + q is column q of the g-th
  matrix), and br is the four biases end to end. Entry by entry these blocks are entries of the full arrays, so row p
  of the block, which is row r of the full arrays, carries the same sums and the same gates as the specification at
  row r. Only equal terms are replaced by equal terms: no sum is rearranged and nothing is assumed finite.
-/
import proofs.«104022_j63737314673186_1_alg».proof.Proof.Spec
import proofs.«104022_j63737314673186_1_alg».proof.Proof.Joins
import proofs.«104022_j63737314673186_1_alg».proof.Proof.Payload

noncomputable section

open scoped BigOperators

namespace Cert.KernelIdeal.Bridge

open Cert.KernelIdeal Idealize.ShloMosaic Idealize.ShloMosaic.ValueIdx Cert.Lstm Cert.KernelIdeal.Payload

/-- Column g * 1024 + q of the block's pre-activations, at row p of the block, is gate g's pre-activation at row r
    and unit q: the two sums and the bias agree term by term. -/
theorem z_bridge (x a : FVec Ideal S16384x1024 .f32) (W : Fin 4 → FVec Ideal S2048x1024 .f32) (b : Fin 4 → FVec Ideal S1024 .f32)
    (x0 a0 : FVec Ideal S256x1024 .f32) (wt wb : FVec Ideal S1024x4096 .bf16) (br : FVec Ideal S1x4096 .f32) (r : Fin 16384) (p : Fin 256)
    (hx : ∀ k : Fin 1024, x0 (ix2 p k) = x (ix2 r k)) (ha : ∀ k : Fin 1024, a0 (ix2 p k) = a (ix2 r k))
    (hwt : ∀ (k : Fin 1024) (g : Fin 4) (q : Fin 1024), wt (ix2 k (col g q)) = W g (ix2 (low k) q))
    (hwb : ∀ (k : Fin 1024) (g : Fin 4) (q : Fin 1024), wb (ix2 k (col g q)) = W g (ix2 (high k) q))
    (hbr : ∀ (g : Fin 4) (q : Fin 1024), br (ix2 (0 : Fin 1) (col g q)) = b g (ix1 q)) (g : Fin 4) (q : Fin 1024) :
    zblk x0 a0 wt wb br p (col g q) = Cert.Lstm.pre x a (W g) (b g) r q := by
  have h1 : ∀ k : Fin 1024, x0 (ix2 p k) * wt (ix2 k (col g q)) = x (ix2 r k) * W g (ix2 (low k) q) := fun k => by
    rw [hx k, hwt k g q]
  have h2 : ∀ k : Fin 1024, a0 (ix2 p k) * wb (ix2 k (col g q)) = a (ix2 r k) * W g (ix2 (high k) q) := fun k => by
    rw [ha k, hwb k g q]
  unfold zblk Cert.Lstm.pre
  rw [Finset.sum_congr rfl (fun k _ => h1 k), Finset.sum_congr rfl (fun k _ => h2 k), hbr g q]

/-- The block's cell state at row p is the specification's new cell state at row r. -/
theorem cell_bridge (x a c : FVec Ideal S16384x1024 .f32) (W : Fin 4 → FVec Ideal S2048x1024 .f32) (b : Fin 4 → FVec Ideal S1024 .f32)
    (x0 a0 c0 : FVec Ideal S256x1024 .f32) (wt wb : FVec Ideal S1024x4096 .bf16) (br : FVec Ideal S1x4096 .f32) (r : Fin 16384) (p : Fin 256)
    (hx : ∀ k : Fin 1024, x0 (ix2 p k) = x (ix2 r k)) (ha : ∀ k : Fin 1024, a0 (ix2 p k) = a (ix2 r k))
    (hc : ∀ q : Fin 1024, c0 (ix2 p q) = c (ix2 r q))
    (hwt : ∀ (k : Fin 1024) (g : Fin 4) (q : Fin 1024), wt (ix2 k (col g q)) = W g (ix2 (low k) q))
    (hwb : ∀ (k : Fin 1024) (g : Fin 4) (q : Fin 1024), wb (ix2 k (col g q)) = W g (ix2 (high k) q))
    (hbr : ∀ (g : Fin 4) (q : Fin 1024), br (ix2 (0 : Fin 1) (col g q)) = b g (ix1 q)) (q : Fin 1024) :
    cellBlk x0 a0 wt wb br c0 p q = Cert.Lstm.newC x a c (W 0) (b 0) (W 1) (b 1) (W 3) (b 3) r q := by
  unfold cellBlk Cert.Lstm.newC
  rw [z_bridge x a W b x0 a0 wt wb br r p hx ha hwt hwb hbr 1 q, z_bridge x a W b x0 a0 wt wb br r p hx ha hwt hwb hbr 3 q,
    z_bridge x a W b x0 a0 wt wb br r p hx ha hwt hwb hbr 0 q, hc q]

/-- The block's hidden state at row p is the specification's new hidden state at row r. -/
theorem hidden_bridge (x a c : FVec Ideal S16384x1024 .f32) (W : Fin 4 → FVec Ideal S2048x1024 .f32) (b : Fin 4 → FVec Ideal S1024 .f32)
    (x0 a0 c0 : FVec Ideal S256x1024 .f32) (wt wb : FVec Ideal S1024x4096 .bf16) (br : FVec Ideal S1x4096 .f32) (r : Fin 16384) (p : Fin 256)
    (hx : ∀ k : Fin 1024, x0 (ix2 p k) = x (ix2 r k)) (ha : ∀ k : Fin 1024, a0 (ix2 p k) = a (ix2 r k))
    (hc : ∀ q : Fin 1024, c0 (ix2 p q) = c (ix2 r q))
    (hwt : ∀ (k : Fin 1024) (g : Fin 4) (q : Fin 1024), wt (ix2 k (col g q)) = W g (ix2 (low k) q))
    (hwb : ∀ (k : Fin 1024) (g : Fin 4) (q : Fin 1024), wb (ix2 k (col g q)) = W g (ix2 (high k) q))
    (hbr : ∀ (g : Fin 4) (q : Fin 1024), br (ix2 (0 : Fin 1) (col g q)) = b g (ix1 q)) (q : Fin 1024) :
    hiddenBlk x0 a0 wt wb br c0 p q
      = Cert.Lstm.newA x a c (W 0) (b 0) (W 1) (b 1) (W 2) (b 2) (W 3) (b 3) r q := by
  unfold hiddenBlk Cert.Lstm.newA
  rw [z_bridge x a W b x0 a0 wt wb br r p hx ha hwt hwb hbr 2 q,
    cell_bridge x a c W b x0 a0 c0 wt wb br r p hx ha hc hwt hwb hbr q]

end Cert.KernelIdeal.Bridge

end
-- ==== Proof.Blocks.lean ====
/- From blocks to the arrays, over the extended reals.

   The pipelined region works on the 16384 batch rows in 64 blocks of 256 rows, one block per grid point. At point t it
   reads rows 256 t … 256 t + 255 of the input, of the previous hidden state and of the previous cell state, the whole of
   the two [1024, 4096] weight arrays and of the [1, 4096] bias row (made before the region from the four weight matrices'
   upper halves, their lower halves, and the four bias vectors, set side by side), and writes back the same 256 rows of
   the new hidden state and of the new cell state. The 64 row blocks tile each result array, so after the run each result
   array is, entry by entry, the single-step cell's new hidden state and new cell state of the eleven argument arrays. -/
import proofs.«104022_j63737314673186_1_alg».proof.Proof.FrameIdeal
import proofs.«104022_j63737314673186_1_alg».proof.Proof.Spec
import proofs.«104022_j63737314673186_1_alg».proof.Proof.Joins
import proofs.«104022_j63737314673186_1_alg».proof.Proof.Payload
import proofs.«104022_j63737314673186_1_alg».proof.Proof.HostPrefix
import proofs.«104022_j63737314673186_1_alg».proof.Proof.Bridge
import Idealize.ShloMosaic.Lib.Pipeline.Value
import Idealize.ShloMosaic.Lib.Tactic

set_option maxRecDepth 16384

noncomputable section

namespace Cert.KernelIdeal.Blocks

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)
open Cert.Lstm (col low high)

variable (m : (ℓ : Loc nD τ sig) → Buf (Elt Ideal) ℓ) (ρ : Dev nD → PrngReg)

theorem hz : (![0, 0] : Fin 2 → Nat) = fun _ => 0 := funext fun a => by fin_cases a <;> rfl

/-! ## The two results as functions of the argument arrays -/

/-- The new hidden state, entry by entry, from the eleven argument arrays as launched: the array of window 6. -/
def GA (c : Dev nD) : Buf (Elt Ideal) ((c.tc : Thread nD τ).loc main_v14_0) := fun i =>
  Cert.Lstm.newA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

/-- The new cell state, entry by entry: the array of window 7. It does not read the output gate's weights and bias. -/
def GC (c : Dev nD) : Buf (Elt Ideal) ((c.tc : Thread nD τ).loc main_v14_1) := fun i =>
  Cert.Lstm.newC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (i 0) (i 1)

/-- The four weight matrices in the order of their column blocks: forget, update, output, candidate. -/
def Wfam (c : Dev nD) : Fin 4 → FVec Ideal S2048x1024 .f32 :=
  ![m ((c.tc : Thread nD τ).loc main_arg3), m ((c.tc : Thread nD τ).loc main_arg5), m ((c.tc : Thread nD τ).loc main_arg7), m ((c.tc : Thread nD τ).loc main_arg9)]
/-- The four bias vectors in the same order. -/
def bfam (c : Dev nD) : Fin 4 → FVec Ideal S1024 .f32 :=
  ![m ((c.tc : Thread nD τ).loc main_arg4), m ((c.tc : Thread nD τ).loc main_arg6), m ((c.tc : Thread nD τ).loc main_arg8), m ((c.tc : Thread nD τ).loc main_arg10)]

/-! ## The windows' block indices over the grid -/

/-- At point t the three row-blocked inputs and the two outputs are on block (t, 0); the weights and the bias row are
    on block (0, 0) at every point. Decided over the 64 points. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-- The array row that row p of a 256-row block is at point t. -/
def row (t : Fin cfg0.N) (p : Fin 256) : Fin 16384 :=
  ⟨256 * t.val + p.val, by have h : t.val < grid0.N := t.isLt; rw [N_0] at h; have := p.isLt; omega⟩

@[simp] theorem row_val (t : Fin cfg0.N) (p : Fin 256) : (row t p).val = 256 * t.val + p.val := rfl

/-! ## Where a block's entries sit in its array -/

/-- Row p, column k of window 0's block at point t is row 256 t + p, column k of its array. -/
theorem emb_rows0 (t : Fin cfg0.N) (p : Fin 256) (k : Fin 1024) :
    ((cfg0.win 0).blk t).view.emb (ix2 p k : S256x1024.Idx) = (ix2 (row t p) k : S16384x1024.Idx) := by
  obtain ⟨e00, e01, e10, e11, e20, e21, e30, e31, e40, e41, e50, e51, e60, e61, e70, e71⟩ := idx_facts t
  funext a; apply Fin.ext
  match a with
  | ⟨0, _⟩ => show win0_0.index t (0 : Fin 2) * 256 + 1 * p.val = 256 * t.val + p.val; rw [e00]; omega
  | ⟨1, _⟩ => show win0_0.index t (1 : Fin 2) * 1024 + 1 * k.val = k.val; rw [e01]; omega
/-- Row p, column k of window 1's block at point t is row 256 t + p, column k of its array. -/
theorem emb_rows1 (t : Fin cfg0.N) (p : Fin 256) (k : Fin 1024) :
    ((cfg0.win 1).blk t).view.emb (ix2 p k : S256x1024.Idx) = (ix2 (row t p) k : S16384x1024.Idx) := by
  obtain ⟨e00, e01, e10, e11, e20, e21, e30, e31, e40, e41, e50, e51, e60, e61, e70, e71⟩ := idx_facts t
  funext a; apply Fin.ext
  match a with
  | ⟨0, _⟩ => show win0_1.index t (0 : Fin 2) * 256 + 1 * p.val = 256 * t.val + p.val; rw [e10]; omega
  | ⟨1, _⟩ => show win0_1.index t (1 : Fin 2) * 1024 + 1 * k.val = k.val; rw [e11]; omega
/-- Row p, column k of window 2's block at point t is row 256 t + p, column k of its array. -/
theorem emb_rows2 (t : Fin cfg0.N) (p : Fin 256) (k : Fin 1024) :
    ((cfg0.win 2).blk t).view.emb (ix2 p k : S256x1024.Idx) = (ix2 (row t p) k : S16384x1024.Idx) := by
  obtain ⟨e00, e01, e10, e11, e20, e21, e30, e31, e40, e41, e50, e51, e60, e61, e70, e71⟩ := idx_facts t
  funext a; apply Fin.ext
  match a with
  | ⟨0, _⟩ => show win0_2.index t (0 : Fin 2) * 256 + 1 * p.val = 256 * t.val + p.val; rw [e20]; omega
  | ⟨1, _⟩ => show win0_2.index t (1 : Fin 2) * 1024 + 1 * k.val = k.val; rw [e21]; omega
/-- Row p, column k of window 6's block at point t is row 256 t + p, column k of its array. -/
theorem emb_rows6 (t : Fin cfg0.N) (p : Fin 256) (k : Fin 1024) :
    ((cfg0.win 6).blk t).view.emb (ix2 p k : S256x1024.Idx) = (ix2 (row t p) k : S16384x1024.Idx) := by
  obtain ⟨e00, e01, e10, e11, e20, e21, e30, e31, e40, e41, e50, e51, e60, e61, e70, e71⟩ := idx_facts t
  funext a; apply Fin.ext
  match a with
  | ⟨0, _⟩ => show win0_6.index t (0 : Fin 2) * 256 + 1 * p.val = 256 * t.val + p.val; rw [e60]; omega
  | ⟨1, _⟩ => show win0_6.index t (1 : Fin 2) * 1024 + 1 * k.val = k.val; rw [e61]; omega
/-- Row p, column k of window 7's block at point t is row 256 t + p, column k of its array. -/
theorem emb_rows7 (t : Fin cfg0.N) (p : Fin 256) (k : Fin 1024) :
    ((cfg0.win 7).blk t).view.emb (ix2 p k : S256x1024.Idx) = (ix2 (row t p) k : S16384x1024.Idx) := by
  obtain ⟨e00, e01, e10, e11, e20, e21, e30, e31, e40, e41, e50, e51, e60, e61, e70, e71⟩ := idx_facts t
  funext a; apply Fin.ext
  match a with
  | ⟨0, _⟩ => show win0_7.index t (0 : Fin 2) * 256 + 1 * p.val = 256 * t.val + p.val; rw [e70]; omega
  | ⟨1, _⟩ => show win0_7.index t (1 : Fin 2) * 1024 + 1 * k.val = k.val; rw [e71]; omega
/-- Window 3's one block is its whole array, at every point. -/
theorem emb_whole3 (t : Fin cfg0.N) (k : Fin 1024) (j : Fin 4096) :
    ((cfg0.win 3).blk t).view.emb (ix2 k j : S1024x4096.Idx) = (ix2 k j : S1024x4096.Idx) := by
  obtain ⟨e00, e01, e10, e11, e20, e21, e30, e31, e40, e41, e50, e51, e60, e61, e70, e71⟩ := idx_facts t
  funext a; apply Fin.ext
  match a with
  | ⟨0, _⟩ => show win0_3.index t (0 : Fin 2) * 1024 + 1 * k.val = k.val; rw [e30]; omega
  | ⟨1, _⟩ => show win0_3.index t (1 : Fin 2) * 4096 + 1 * j.val = j.val; rw [e31]; omega
/-- Window 4's one block is its whole array, at every point. -/
theorem emb_whole4 (t : Fin cfg0.N) (k : Fin 1024) (j : Fin 4096) :
    ((cfg0.win 4).blk t).view.emb (ix2 k j : S1024x4096.Idx) = (ix2 k j : S1024x4096.Idx) := by
  obtain ⟨e00, e01, e10, e11, e20, e21, e30, e31, e40, e41, e50, e51, e60, e61, e70, e71⟩ := idx_facts t
  funext a; apply Fin.ext
  match a with
  | ⟨0, _⟩ => show win0_4.index t (0 : Fin 2) * 1024 + 1 * k.val = k.val; rw [e40]; omega
  | ⟨1, _⟩ => show win0_4.index t (1 : Fin 2) * 4096 + 1 * j.val = j.val; rw [e41]; omega
/-- Window 5's one block is its whole array, at every point. -/
theorem emb_whole5 (t : Fin cfg0.N) (k : Fin 1) (j : Fin 4096) :
    ((cfg0.win 5).blk t).view.emb (ix2 k j : S1x4096.Idx) = (ix2 k j : S1x4096.Idx) := by
  obtain ⟨e00, e01, e10, e11, e20, e21, e30, e31, e40, e41, e50, e51, e60, e61, e70, e71⟩ := idx_facts t
  funext a; apply Fin.ext
  match a with
  | ⟨0, _⟩ => show win0_5.index t (0 : Fin 2) * 1 + 1 * k.val = k.val; rw [e50]; omega
  | ⟨1, _⟩ => show win0_5.index t (1 : Fin 2) * 4096 + 1 * j.val = j.val; rw [e51]; omega

/-! ## The input blocks read off the argument arrays -/

/-- The first input's block at point t: rows 256 t … 256 t + 255 of the argument. -/
theorem xblk_apply (c : Dev nD) (t : Fin cfg0.N) (p : Fin 256) (k : Fin 1024) :
    (iblk m c 0 t : Vec Ideal S256x1024 .f32) (ix2 p k) = (m ((c.tc : Thread nD τ).loc main_arg0) : S16384x1024.Idx → EReal) (ix2 (row t p) k) := by
  unfold iblk
  rw [View.read_apply, emb_rows0]
  exact congrFun (V_main_arg0 m c) _
/-- The previous hidden state's block at point t, likewise. -/
theorem ablk_apply (c : Dev nD) (t : Fin cfg0.N) (p : Fin 256) (k : Fin 1024) :
    (iblk m c 1 t : Vec Ideal S256x1024 .f32) (ix2 p k) = (m ((c.tc : Thread nD τ).loc main_arg1) : S16384x1024.Idx → EReal) (ix2 (row t p) k) := by
  unfold iblk
  rw [View.read_apply, emb_rows1]
  exact congrFun (V_main_arg1 m c) _
/-- The previous cell state's block at point t, likewise. -/
theorem cblk_apply (c : Dev nD) (t : Fin cfg0.N) (p : Fin 256) (k : Fin 1024) :
    (iblk m c 2 t : Vec Ideal S256x1024 .f32) (ix2 p k) = (m ((c.tc : Thread nD τ).loc main_arg2) : S16384x1024.Idx → EReal) (ix2 (row t p) k) := by
  unfold iblk
  rw [View.read_apply, emb_rows2]
  exact congrFun (V_main_arg2 m c) _

/-- The array window 3 stages, as the region finds it: the upper halves of the four weight matrices side by side,
    narrowed to bf16. -/
theorem V_wtop (c : Dev nD) : V m c main_v5 = (truncf .bf16 (HostPrefix.cat4 (F := Ideal) (HostPrefix.top (Wfam m c 0)) (HostPrefix.top (Wfam m c 1))
    (HostPrefix.top (Wfam m c 2)) (HostPrefix.top (Wfam m c 3))) Facts₀.bitsLt_bf16_f32 : FVec Ideal S1024x4096 .bf16) := by
  dsimp only [V]; simp only [List.flatten_cons, List.flatten_nil, List.append_nil]
  exact HostPrefix.wtop_eq (F := Ideal) (fun b => m (c, b))

/-- The array window 4 stages: their lower halves, likewise. -/
theorem V_wbot (c : Dev nD) : V m c main_v11 = (truncf .bf16 (HostPrefix.cat4 (F := Ideal) (HostPrefix.bot (Wfam m c 0)) (HostPrefix.bot (Wfam m c 1))
    (HostPrefix.bot (Wfam m c 2)) (HostPrefix.bot (Wfam m c 3))) Facts₀.bitsLt_bf16_f32 : FVec Ideal S1024x4096 .bf16) := by
  dsimp only [V]; simp only [List.flatten_cons, List.flatten_nil, List.append_nil]
  exact HostPrefix.wbot_eq (F := Ideal) (fun b => m (c, b))

/-- The array window 5 stages: the four biases end to end, as one row. -/
theorem V_bias (c : Dev nD) : V m c main_v13 = (broadcastInDim S1x4096 ![1] Facts₀.bcast_S4096_S1x4096_1 (HostPrefix.catB (F := Ideal) (bfam m c 0) (bfam m c 1)
    (bfam m c 2) (bfam m c 3)) : FVec Ideal S1x4096 .f32) := by
  dsimp only [V]; simp only [List.flatten_cons, List.flatten_nil, List.append_nil]
  exact HostPrefix.bias_eq (F := Ideal) (fun b => m (c, b))

/-! ## The weight and bias blocks read off the argument arrays -/

/-- Window 3's block, at every point: entry (k, g * 1024 + q) is entry (k, q) of the g-th weight matrix (its upper half). -/
theorem wtblk_apply (c : Dev nD) (t : Fin cfg0.N) (k : Fin 1024) (g : Fin 4) (q : Fin 1024) :
    (iblk m c 3 t : Vec Ideal S1024x4096 .bf16) (ix2 k (col g q)) = Wfam m c g (ix2 (low k) q) := by
  unfold iblk
  rw [View.read_apply, emb_whole3]
  refine (congrFun (V_wtop m c) _).trans ?_
  exact HostPrefix.wtop_apply (Wfam m c) k g q
/-- Window 4's block, at every point: entry (k, g * 1024 + q) is entry (1024 + k, q) of the g-th weight matrix (its lower half). -/
theorem wbblk_apply (c : Dev nD) (t : Fin cfg0.N) (k : Fin 1024) (g : Fin 4) (q : Fin 1024) :
    (iblk m c 4 t : Vec Ideal S1024x4096 .bf16) (ix2 k (col g q)) = Wfam m c g (ix2 (high k) q) := by
  unfold iblk
  rw [View.read_apply, emb_whole4]
  refine (congrFun (V_wbot m c) _).trans ?_
  exact HostPrefix.wbot_apply (Wfam m c) k g q
/-- Window 5's block, at every point: entry (0, g * 1024 + q) is entry q of the g-th bias vector. -/
theorem brblk_apply (c : Dev nD) (t : Fin cfg0.N) (g : Fin 4) (q : Fin 1024) :
    (iblk m c 5 t : Vec Ideal S1x4096 .f32) (ix2 (0 : Fin 1) (col g q)) = bfam m c g (ix1 q) := by
  unfold iblk
  rw [View.read_apply, emb_whole5]
  refine (congrFun (V_bias m c) _).trans ?_
  exact HostPrefix.bias_apply (bfam m c) g q

/-! ## What a point writes back -/

/-- What point t writes back to window 6's array is block t of the new hidden state. -/
theorem flushed6_eq (c : Dev nD) (t : Fin cfg0.N) :
    (dats m 0 c).flushed 6 t = ((cfg0.win 6).blk t).view.read (Elt Ideal) (GA m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (Payload.pay3_apply (iblk m c 0 t) (iblk m c 1 t) (iblk m c 3 t) (iblk m c 4 t) (iblk m c 5 t) (iblk m c 2 t) p q).trans ?_
  rw [View.read_apply, emb_rows6]
  exact Bridge.hidden_bridge (m ((c.tc : Thread nD τ).loc main_arg0)) (m ((c.tc : Thread nD τ).loc main_arg1)) (m ((c.tc : Thread nD τ).loc main_arg2)) (Wfam m c) (bfam m c)
    (iblk m c 0 t) (iblk m c 1 t) (iblk m c 2 t) (iblk m c 3 t) (iblk m c 4 t) (iblk m c 5 t) (row t p) p
    (xblk_apply m c t p) (ablk_apply m c t p) (cblk_apply m c t p) (wtblk_apply m c t) (wbblk_apply m c t) (brblk_apply m c t) q

/-- What point t writes back to window 7's array is block t of the new cell state. -/
theorem flushed7_eq (c : Dev nD) (t : Fin cfg0.N) :
    (dats m 0 c).flushed 7 t = ((cfg0.win 7).blk t).view.read (Elt Ideal) (GC m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (Payload.pay2_apply (iblk m c 0 t) (iblk m c 1 t) (iblk m c 3 t) (iblk m c 4 t) (iblk m c 5 t) (iblk m c 2 t) p q).trans ?_
  rw [View.read_apply, emb_rows7]
  exact Bridge.cell_bridge (m ((c.tc : Thread nD τ).loc main_arg0)) (m ((c.tc : Thread nD τ).loc main_arg1)) (m ((c.tc : Thread nD τ).loc main_arg2)) (Wfam m c) (bfam m c)
    (iblk m c 0 t) (iblk m c 1 t) (iblk m c 2 t) (iblk m c 3 t) (iblk m c 4 t) (iblk m c 5 t) (row t p) p
    (xblk_apply m c t p) (ablk_apply m c t p) (cblk_apply m c t p) (wtblk_apply m c t) (wbblk_apply m c t) (brblk_apply m c t) q

/-! ## The blocks tile the arrays -/

/-- An entry of window 6's array is in point t's block iff each coordinate is in the block's range on its axis. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v14_0).slice (win0_6.rect t)).set ↔ _
  rw [View.set_slice_whole, Rect.mem_set_unit]
  exact Iff.rfl

/-- Every entry of window 6's array is in the block of some point that writes back: row r is in the block of point r / 256. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 256 := ⟨⟨(i 0).val / 256, by show _ < grid0.N; rw [N_0]; omega⟩, rfl⟩
  obtain ⟨e00, e01, e10, e11, e20, e21, e30, e31, e40, e41, e50, e51, e60, e61, e70, e71⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e60]; omega
  | ⟨1, _⟩ => show win0_6.index t (1 : Fin 2) * 1024 ≤ (i 1).val ∧ (i 1).val < win0_6.index t (1 : Fin 2) * 1024 + 1024; rw [e61]; omega

/-- An entry of window 7's array is in point t's block iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v14_1).slice (win0_7.rect t)).set ↔ _
  rw [View.set_slice_whole, Rect.mem_set_unit]
  exact Iff.rfl

/-- Every entry of window 7's array is in the block of some point that writes back: row r is in the block of point r / 256. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 256 := ⟨⟨(i 0).val / 256, by show _ < grid0.N; rw [N_0]; omega⟩, rfl⟩
  obtain ⟨e00, e01, e10, e11, e20, e21, e30, e31, e40, e41, e50, e51, e60, e61, e70, e71⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; rw [e70]; omega
  | ⟨1, _⟩ => show win0_7.index t (1 : Fin 2) * 1024 ≤ (i 1).val ∧ (i 1).val < win0_7.index t (1 : Fin 2) * 1024 + 1024; rw [e71]; omega

/-- So window 6's array ends holding the new hidden state, -/
theorem final6 (c : Dev nD) : (dats m 0 c).arrAt 6 cfg0.N = GA m c :=
  (dats m 0 c).arrAt_eq_of_cover 6 (GA m c) (fun t _ => flushed6_eq m c t) cover6

/-- and window 7's the new cell state. -/
theorem final7 (c : Dev nD) : (dats m 0 c).arrAt 7 cfg0.N = GC m c :=
  (dats m 0 c).arrAt_eq_of_cover 7 (GC m c) (fun t _ => flushed7_eq m c t) cover7

/-! ## The run, read -/

/-- After the run, window 6's array is what the proof data computes for it. -/
theorem post6 (r : PUnit × MemSt nD τ sig (Elt Ideal)) (h : Pipeline.FramePost cfgs (dats m) 0 (V m) r) (c : Dev nD) :
    r.2.mem ((c.tc : Thread nD τ).loc main_v14_0) = (dats m 0 c).arrAt 6 cfg0.N :=
  (h c).1 6
/-- After the run, window 7's array is what the proof data computes for it. -/
theorem post7 (r : PUnit × MemSt nD τ sig (Elt Ideal)) (h : Pipeline.FramePost cfgs (dats m) 0 (V m) r) (c : Dev nD) :
    r.2.mem ((c.tc : Thread nD τ).loc main_v14_1) = (dats m 0 c).arrAt 7 cfg0.N :=
  (h c).1 7

/-- After the run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- After the run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- After the run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- After the run, argument `main_arg3` is as launched: no window stages it and no host operation writes it. -/
theorem kept_main_arg3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
/-- After the run, argument `main_arg4` is as launched: no window stages it and no host operation writes it. -/
theorem kept_main_arg4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
/-- After the run, argument `main_arg5` is as launched: no window stages it and no host operation writes it. -/
theorem kept_main_arg5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
/-- After the run, argument `main_arg6` is as launched: no window stages it and no host operation writes it. -/
theorem kept_main_arg6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
/-- After the run, argument `main_arg7` is as launched: no window stages it and no host operation writes it. -/
theorem kept_main_arg7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
/-- After the run, argument `main_arg8` is as launched: no window stages it and no host operation writes it. -/
theorem kept_main_arg8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
/-- After the run, argument `main_arg9` is as launched: no window stages it and no host operation writes it. -/
theorem kept_main_arg9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
/-- After the run, argument `main_arg10` is as launched: no window stages it and no host operation writes it. -/
theorem kept_main_arg10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- The run, read: every weakly fair execution of `@main` terminates with the first result array at the new hidden
    state, the second at the new cell state — each as one function of the eleven argument arrays as launched — and the
    eleven arguments unchanged. -/
theorem run : θ_run defs (onTc (τ := τ) (main (F := Ideal))) ⟨m, fun _ => 0, ρ⟩ fun r => ∀ c : Dev nD,
      r.2.mem ((c.tc : Thread nD τ).loc main_v14_0) = GA m c
      ∧ r.2.mem ((c.tc : Thread nD τ).loc main_v14_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(post6 m r h c).trans (final6 m c), (post7 m r h c).trans (final7 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Blocks

end
-- ==== Proof.LibGateLaws.lean ====
/-
  Laws of the gated recurrent cell on the extended reals, free of any program.

  * The sigmoid written out as a quotient, 1 / (1 + e^(-x)), is the one-operation sigmoid at every extended real,
    the infinities included (at -inf the quotient is 1 / (1 + inf) = 0, at +inf it is 1 / (1 + 0) = 1).
  * The f32 words of 1.0 and of +0.0 denote the extended reals 1 and 0.
  * A sum of three gated terms accumulated left to right from a starting value, each term "gate times value", is
    the starting value plus the sum over the three positions of "value times gate": only commutativity of the
    product and associativity of the sum are used, so nothing is assumed finite.
-/
import Idealize.ShloMosaic.PureOps.Ideal

noncomputable section

namespace Cert.Lib.GateLaws

open Idealize.ShloMosaic

/-- The f32 word of 1.0 denotes the extended real 1. -/
theorem one_word : Ideal.ofBits .f32 0x3F800000#32 = 1 := by
  simp [Ideal.ofBits, Ideal.ieee, -EReal.coe_mul]; norm_num

/-- The f32 word of +0.0 denotes the extended real 0. -/
theorem zero_word : Ideal.ofBits .f32 0x00000000#32 = 0 := by
  simp [Ideal.ofBits, Ideal.ieee]

/-- The quotient 1 / (1 + e^(-x)) in the host's operations, its two ones the f32 word of 1.0, is the sigmoid. -/
theorem sigmoid_spelled (x : Ideal .f32) :
    FloatOps.hostDivf (Ideal.ofBits .f32 0x3F800000#32)
        (FloatOps.addf (Ideal.ofBits .f32 0x3F800000#32) (FloatOps.hostUnary .exp (FloatOps.hostNegf x)))
      = FloatOps.logistic x := by
  rw [one_word]; rfl

/-- Three gated terms accumulated left to right from z are z plus the sum of the three products, factors commuted. -/
theorem gated_sum (z : EReal) (g a : Fin 3 → EReal) :
    ((z + g 0 * a 0) + g 1 * a 1) + g 2 * a 2 = z + ∑ s : Fin 3, a s * g s := by
  rw [Fin.sum_univ_three, mul_comm (g 0), mul_comm (g 1), mul_comm (g 2), add_assoc, add_assoc, add_assoc]

end Cert.Lib.GateLaws

end
-- ==== Proof.RefSide.lean ====
/-
  The reference program's two results are the specification's functions.

  The reference joins its arrays side by side before one matrix product:
    * the joined input [x, a] : [16384, 2048] holds x(p,k) at column k < 1024 and a(p,k) at column 1024 + k;
    * the joined weights [Wf, Wu, Wo, Wc] : [2048, 4096] hold W_g(r,q) at row r and column g*1024 + q;
    * the joined bias [bf, bu, bo, bc] : [4096] holds b_g(q) at position g*1024 + q.
  So the entry (p, g*1024 + q) of  joined input * joined weights + joined bias  is, after the sum over the 2048
  joined columns is split into its two halves, the pre-activation of gate g at (p, q). The four column blocks
  g = 0, 1, 2, 3 are the gates f, u, o, c. Three of them pass through 1 / (1 + e^(-z)), which is the sigmoid, the
  fourth through tanh, and the cell and hidden state follow by the two defining equations.
-/
import proofs.«104022_j63737314673186_1_alg».proof.Proof.Gen.ReferenceIdeal.Read
import proofs.«104022_j63737314673186_1_alg».proof.Proof.Spec
import proofs.«104022_j63737314673186_1_alg».proof.Proof.LibGateLaws
import Idealize.ShloMosaic.Lib.Pipeline.Value
import Idealize.ShloMosaic.Lib.ValueIdx
import Idealize.ShloMosaic.PureOps.Ideal

noncomputable section

open scoped BigOperators

namespace Cert.Lstm.Ref

open Cert.ReferenceIdeal Cert.ReferenceIdeal.Gen Cert.ReferenceIdeal.Read Idealize.ShloMosaic Idealize.ShloMosaic.ValueIdx

/-! ## The joined input -/

/-- At a column k < 1024 the joined row [x, a] holds x(p,k). -/
theorem input_low (x a : (⟨S16384x1024, .f32⟩ : BufTy).Contents (Elt Ideal)) (j : S16384x2048.Idx)
    (p : Fin 16384) (k : Fin 1024) (h0 : (j 0).val = p.val) (h1 : (j 1).val = k.val) :
    val_main_v0 (F := Ideal) x a j = x (ix2 p k) := by
  unfold val_main_v0
  refine concatenate_pair_apply_left 1 x a _ j rfl (ix2 p k) ?_
  intro b
  match b with
  | ⟨0, _⟩ => exact h0.symm
  | ⟨1, _⟩ => exact h1.symm

/-- At a column 1024 + k the joined row [x, a] holds a(p,k). -/
theorem input_high (x a : (⟨S16384x1024, .f32⟩ : BufTy).Contents (Elt Ideal)) (j : S16384x2048.Idx)
    (p : Fin 16384) (k : Fin 1024) (h0 : (j 0).val = p.val) (h1 : (j 1).val = 1024 + k.val) :
    val_main_v0 (F := Ideal) x a j = a (ix2 p k) := by
  unfold val_main_v0
  refine concatenate_pair_apply_right 1 x a _ j rfl rfl (ix2 p k) ?_ ?_
  · intro b hb
    match b, hb with
    | ⟨0, _⟩, _ => exact h0.symm
    | ⟨1, _⟩, hb => exact absurd rfl hb
  · show k.val + 1024 = (j 1).val
    omega

/-! ## The joined weights -/

/-- At column q < 1024 the joined weights hold Wf(r,q): the first block is the forget gate's. -/
theorem weight_f (Wf Wu Wo Wc : (⟨S2048x1024, .f32⟩ : BufTy).Contents (Elt Ideal)) (j : S2048x4096.Idx)
    (r : Fin 2048) (q : Fin 1024) (h0 : (j 0).val = r.val) (h1 : (j 1).val = q.val) :
    val_main_v1 (F := Ideal) Wf Wu Wo Wc j = Wf (ix2 r q) := by
  unfold val_main_v1
  refine concatenate_apply_piece 1 _ _ j 0 (by simp) S2048x1024 Wf rfl rfl 0 rfl (ix2 r q) ?_ ?_
  · intro b hb
    match b, hb with
    | ⟨0, _⟩, _ => exact h0.symm
    | ⟨1, _⟩, hb => exact absurd rfl hb
  · show 0 + q.val = (j 1).val
    omega

/-- At column 1024 + q the joined weights hold Wu(r,q): the second block is the update gate's. -/
theorem weight_u (Wf Wu Wo Wc : (⟨S2048x1024, .f32⟩ : BufTy).Contents (Elt Ideal)) (j : S2048x4096.Idx)
    (r : Fin 2048) (q : Fin 1024) (h0 : (j 0).val = r.val) (h1 : (j 1).val = 1024 + q.val) :
    val_main_v1 (F := Ideal) Wf Wu Wo Wc j = Wu (ix2 r q) := by
  unfold val_main_v1
  refine concatenate_apply_piece 1 _ _ j 1 (by simp) S2048x1024 Wu rfl rfl 1024 rfl (ix2 r q) ?_ ?_
  · intro b hb
    match b, hb with
    | ⟨0, _⟩, _ => exact h0.symm
    | ⟨1, _⟩, hb => exact absurd rfl hb
  · show 1024 + q.val = (j 1).val
    omega

/-- At column 2048 + q the joined weights hold Wo(r,q): the third block is the output gate's. -/
theorem weight_o (Wf Wu Wo Wc : (⟨S2048x1024, .f32⟩ : BufTy).Contents (Elt Ideal)) (j : S2048x4096.Idx)
    (r : Fin 2048) (q : Fin 1024) (h0 : (j 0).val = r.val) (h1 : (j 1).val = 2048 + q.val) :
    val_main_v1 (F := Ideal) Wf Wu Wo Wc j = Wo (ix2 r q) := by
  unfold val_main_v1
  refine concatenate_apply_piece 1 _ _ j 2 (by simp) S2048x1024 Wo rfl rfl 2048 rfl (ix2 r q) ?_ ?_
  · intro b hb
    match b, hb with
    | ⟨0, _⟩, _ => exact h0.symm
    | ⟨1, _⟩, hb => exact absurd rfl hb
  · show 2048 + q.val = (j 1).val
    omega

/-- At column 3072 + q the joined weights hold Wc(r,q): the fourth block is the candidate's. -/
theorem weight_c (Wf Wu Wo Wc : (⟨S2048x1024, .f32⟩ : BufTy).Contents (Elt Ideal)) (j : S2048x4096.Idx)
    (r : Fin 2048) (q : Fin 1024) (h0 : (j 0).val = r.val) (h1 : (j 1).val = 3072 + q.val) :
    val_main_v1 (F := Ideal) Wf Wu Wo Wc j = Wc (ix2 r q) := by
  unfold val_main_v1
  refine concatenate_apply_piece 1 _ _ j 3 (by simp) S2048x1024 Wc rfl rfl 3072 rfl (ix2 r q) ?_ ?_
  · intro b hb
    match b, hb with
    | ⟨0, _⟩, _ => exact h0.symm
    | ⟨1, _⟩, hb => exact absurd rfl hb
  · show 3072 + q.val = (j 1).val
    omega

/-! ## The joined bias -/

/-- At position q < 1024 the joined bias holds bf(q). -/
theorem bias_f (bf bu bo bc : (⟨S1024, .f32⟩ : BufTy).Contents (Elt Ideal)) (j : S4096.Idx)
    (q : Fin 1024) (h0 : (j 0).val = q.val) :
    val_main_v2 (F := Ideal) bf bu bo bc j = bf (ix1 q) := by
  unfold val_main_v2
  refine concatenate_apply_piece 0 _ _ j 0 (by simp) S1024 bf rfl rfl 0 rfl (ix1 q) ?_ ?_
  · intro b hb
    match b, hb with
    | ⟨0, _⟩, hb => exact absurd rfl hb
  · show 0 + q.val = (j 0).val
    omega

/-- At position 1024 + q the joined bias holds bu(q). -/
theorem bias_u (bf bu bo bc : (⟨S1024, .f32⟩ : BufTy).Contents (Elt Ideal)) (j : S4096.Idx)
    (q : Fin 1024) (h0 : (j 0).val = 1024 + q.val) :
    val_main_v2 (F := Ideal) bf bu bo bc j = bu (ix1 q) := by
  unfold val_main_v2
  refine concatenate_apply_piece 0 _ _ j 1 (by simp) S1024 bu rfl rfl 1024 rfl (ix1 q) ?_ ?_
  · intro b hb
    match b, hb with
    | ⟨0, _⟩, hb => exact absurd rfl hb
  · show 1024 + q.val = (j 0).val
    omega

/-- At position 2048 + q the joined bias holds bo(q). -/
theorem bias_o (bf bu bo bc : (⟨S1024, .f32⟩ : BufTy).Contents (Elt Ideal)) (j : S4096.Idx)
    (q : Fin 1024) (h0 : (j 0).val = 2048 + q.val) :
    val_main_v2 (F := Ideal) bf bu bo bc j = bo (ix1 q) := by
  unfold val_main_v2
  refine concatenate_apply_piece 0 _ _ j 2 (by simp) S1024 bo rfl rfl 2048 rfl (ix1 q) ?_ ?_
  · intro b hb
    match b, hb with
    | ⟨0, _⟩, hb => exact absurd rfl hb
  · show 2048 + q.val = (j 0).val
    omega

/-- At position 3072 + q the joined bias holds bc(q). -/
theorem bias_c (bf bu bo bc : (⟨S1024, .f32⟩ : BufTy).Contents (Elt Ideal)) (j : S4096.Idx)
    (q : Fin 1024) (h0 : (j 0).val = 3072 + q.val) :
    val_main_v2 (F := Ideal) bf bu bo bc j = bc (ix1 q) := by
  unfold val_main_v2
  refine concatenate_apply_piece 0 _ _ j 3 (by simp) S1024 bc rfl rfl 3072 rfl (ix1 q) ?_ ?_
  · intro b hb
    match b, hb with
    | ⟨0, _⟩, hb => exact absurd rfl hb
  · show 3072 + q.val = (j 0).val
    omega

/-! ## The pre-activations -/

/-- The entry of  joined input * joined weights + joined bias  in batch row p, at a column where the joined weights
    hold W(·,q) and the joined bias holds b(q), is the pre-activation of the gate (W, b) at (p, q): the sum over the
    2048 joined columns splits into the first 1024, where the joined input holds x, and the last 1024, where it
    holds a. -/
theorem z_eq (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal))
    (W : (⟨S2048x1024, .f32⟩ : BufTy).Contents (Elt Ideal)) (b : (⟨S1024, .f32⟩ : BufTy).Contents (Elt Ideal))
    (j : S16384x4096.Idx) (p : Fin 16384) (q : Fin 1024) (h0 : (j 0).val = p.val)
    (hW : ∀ r : Fin 2048, val_main_v1 (F := Ideal) Wf Wu Wo Wc (ridx_main_v3 j r) = W (ix2 r q))
    (hb : val_main_v2 (F := Ideal) bf bu bo bc (idx_main_v4 (idx_main_v5 j)) = b (ix1 q)) :
    val_main_v6 (F := Ideal) x a Wf bf Wu bu Wo bo Wc bc j = Cert.Lstm.pre x a W b p q := by
  have hlo : ∀ k : Fin 1024,
      val_main_v0 (F := Ideal) x a (lidx_main_v3 j (Cert.Lstm.low k))
          * val_main_v1 (F := Ideal) Wf Wu Wo Wc (ridx_main_v3 j (Cert.Lstm.low k))
        = x (ix2 p k) * W (ix2 (Cert.Lstm.low k) q) := fun k => by
    rw [input_low x a _ p k h0 rfl, hW]
  have hhi : ∀ k : Fin 1024,
      val_main_v0 (F := Ideal) x a (lidx_main_v3 j (Cert.Lstm.high k))
          * val_main_v1 (F := Ideal) Wf Wu Wo Wc (ridx_main_v3 j (Cert.Lstm.high k))
        = a (ix2 p k) * W (ix2 (Cert.Lstm.high k) q) := fun k => by
    rw [input_high x a _ p k h0 rfl, hW]
  rw [val_main_v6_apply, val_main_v3_apply, val_main_v5_apply, val_main_v4_apply, hb, Ideal.addf_def,
    Cert.Lstm.sum_halves, Finset.sum_congr rfl (fun k _ => hlo k), Finset.sum_congr rfl (fun k _ => hhi k)]
  rfl

/-- The first column block of z is the forget gate's pre-activation. -/
theorem z_f (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v7 (F := Ideal) x a Wf bf Wu bu Wo bo Wc bc (ix2 p q) = Cert.Lstm.pre x a Wf bf p q := by
  rw [val_main_v7_apply]
  exact z_eq x a Wf bf Wu bu Wo bo Wc bc Wf bf _ p q rfl (fun r => weight_f Wf Wu Wo Wc _ r q rfl rfl) (bias_f bf bu bo bc _ q rfl)

/-- The second column block of z is the update gate's pre-activation. -/
theorem z_u (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v8 (F := Ideal) x a Wf bf Wu bu Wo bo Wc bc (ix2 p q) = Cert.Lstm.pre x a Wu bu p q := by
  rw [val_main_v8_apply]
  exact z_eq x a Wf bf Wu bu Wo bo Wc bc Wu bu _ p q rfl (fun r => weight_u Wf Wu Wo Wc _ r q rfl rfl) (bias_u bf bu bo bc _ q rfl)

/-- The third column block of z is the output gate's pre-activation. -/
theorem z_o (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v9 (F := Ideal) x a Wf bf Wu bu Wo bo Wc bc (ix2 p q) = Cert.Lstm.pre x a Wo bo p q := by
  rw [val_main_v9_apply]
  exact z_eq x a Wf bf Wu bu Wo bo Wc bc Wo bo _ p q rfl (fun r => weight_o Wf Wu Wo Wc _ r q rfl rfl) (bias_o bf bu bo bc _ q rfl)

/-- The fourth column block of z is the candidate's pre-activation. -/
theorem z_c (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v10 (F := Ideal) x a Wf bf Wu bu Wo bo Wc bc (ix2 p q) = Cert.Lstm.pre x a Wc bc p q := by
  rw [val_main_v10_apply]
  exact z_eq x a Wf bf Wu bu Wo bo Wc bc Wc bc _ p q rfl (fun r => weight_c Wf Wu Wo Wc _ r q rfl rfl) (bias_c bf bu bo bc _ q rfl)

/-! ## The gates

Each of the three quotients 1 / (1 + e^(-z)), its two ones the f32 word of 1.0, is the sigmoid of its block of z. -/

/-- The forget gate: the sigmoid of its pre-activation. -/
theorem gate_f (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v16 (F := Ideal) x a Wf bf Wu bu Wo bo Wc bc (ix2 p q) = Ideal.logistic (Cert.Lstm.pre x a Wf bf p q) := by
  rw [val_main_v16_apply, val_main_v15_apply, val_main_cst_0_apply, val_main_v14_apply, val_main_v13_apply,
    val_main_cst_apply, val_main_v12_apply, val_main_v11_apply, z_f, Ideal.ofBits_def,
    Cert.Lib.GateLaws.sigmoid_spelled, Ideal.logistic_def]

/-- The update gate: the sigmoid of its pre-activation. -/
theorem gate_u (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v22 (F := Ideal) x a Wf bf Wu bu Wo bo Wc bc (ix2 p q) = Ideal.logistic (Cert.Lstm.pre x a Wu bu p q) := by
  rw [val_main_v22_apply, val_main_v21_apply, val_main_cst_2_apply, val_main_v20_apply, val_main_v19_apply,
    val_main_cst_1_apply, val_main_v18_apply, val_main_v17_apply, z_u, Ideal.ofBits_def,
    Cert.Lib.GateLaws.sigmoid_spelled, Ideal.logistic_def]

/-- The output gate: the sigmoid of its pre-activation. -/
theorem gate_o (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v28 (F := Ideal) x a Wf bf Wu bu Wo bo Wc bc (ix2 p q) = Ideal.logistic (Cert.Lstm.pre x a Wo bo p q) := by
  rw [val_main_v28_apply, val_main_v27_apply, val_main_cst_4_apply, val_main_v26_apply, val_main_v25_apply,
    val_main_cst_3_apply, val_main_v24_apply, val_main_v23_apply, z_o, Ideal.ofBits_def,
    Cert.Lib.GateLaws.sigmoid_spelled, Ideal.logistic_def]

/-- The candidate: the hyperbolic tangent of its pre-activation. -/
theorem cand (x a : (⟨S16384x1024, .f32⟩ : BufTy).Contents (Elt Ideal)) (Wf : (⟨S2048x1024, .f32⟩ : BufTy).Contents (Elt Ideal)) (bf : (⟨S1024, .f32⟩ : BufTy).Contents (Elt Ideal)) (Wu : (⟨S2048x1024, .f32⟩ : BufTy).Contents (Elt Ideal)) (bu : (⟨S1024, .f32⟩ : BufTy).Contents (Elt Ideal)) (Wo : (⟨S2048x1024, .f32⟩ : BufTy).Contents (Elt Ideal)) (bo : (⟨S1024, .f32⟩ : BufTy).Contents (Elt Ideal)) (Wc : (⟨S2048x1024, .f32⟩ : BufTy).Contents (Elt Ideal)) (bc : (⟨S1024, .f32⟩ : BufTy).Contents (Elt Ideal)) (p : Fin 16384) (q : Fin 1024) :
    val_main_v29 (F := Ideal) x a Wf bf Wu bu Wo bo Wc bc (ix2 p q) = Ideal.tanh (Cert.Lstm.pre x a Wc bc p q) := by
  rw [val_main_v29_apply, z_c, Ideal.hostUnary_tanh_def]

/-! ## The two results -/

/-- The reference's new cell state is update gate * candidate + forget gate * old cell state. -/
theorem newC_eq (x0 x1 x2 : (⟨S16384x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v32 (F := Ideal) x0 x1 x2 x3 x4 x5 x6 x7 x8 x9 x10
      = fun i => Cert.Lstm.newC x0 x1 x2 x3 x4 x5 x6 x9 x10 (i 0) (i 1) := by
  funext i
  obtain ⟨p, q, rfl⟩ : ∃ (p : Fin 16384) (q : Fin 1024), i = ix2 p q := ⟨i 0, i 1, eq_ix2 i⟩
  rw [val_main_v32_apply, val_main_v30_apply, val_main_v31_apply, gate_u, cand, gate_f]
  rfl

/-- The reference's new hidden state is output gate * tanh of the new cell state. -/
theorem newA_eq (x0 x1 x2 : (⟨S16384x1024, .f32⟩ : BufTy).Contents (Elt Ideal)) (x3 : (⟨S2048x1024, .f32⟩ : BufTy).Contents (Elt Ideal)) (x4 : (⟨S1024, .f32⟩ : BufTy).Contents (Elt Ideal)) (x5 : (⟨S2048x1024, .f32⟩ : BufTy).Contents (Elt Ideal)) (x6 : (⟨S1024, .f32⟩ : BufTy).Contents (Elt Ideal)) (x7 : (⟨S2048x1024, .f32⟩ : BufTy).Contents (Elt Ideal)) (x8 : (⟨S1024, .f32⟩ : BufTy).Contents (Elt Ideal)) (x9 : (⟨S2048x1024, .f32⟩ : BufTy).Contents (Elt Ideal)) (x10 : (⟨S1024, .f32⟩ : BufTy).Contents (Elt Ideal)) :
    val_main_v34 (F := Ideal) x0 x1 x2 x3 x4 x5 x6 x7 x8 x9 x10
      = fun i => Cert.Lstm.newA x0 x1 x2 x3 x4 x5 x6 x7 x8 x9 x10 (i 0) (i 1) := by
  funext i
  obtain ⟨p, q, rfl⟩ : ∃ (p : Fin 16384) (q : Fin 1024), i = ix2 p q := ⟨i 0, i 1, eq_ix2 i⟩
  rw [val_main_v34_apply, val_main_v33_apply, gate_o, newC_eq]
  rfl

end Cert.Lstm.Ref

end
-- ==== Proof.RefRun.lean ====
/-
  The reference program's run, read as the specification: every execution ends with the two copies of the hidden state
  at the specification's new hidden state of the argument arrays, the cell state at its new cell state, and the
  arguments unchanged.
-/
import proofs.«104022_j63737314673186_1_alg».proof.Proof.Gen.ReferenceIdeal.Run
import proofs.«104022_j63737314673186_1_alg».proof.Proof.Gen.ReferenceIdeal.Read
import proofs.«104022_j63737314673186_1_alg».proof.Proof.RefSide

noncomputable section

namespace Cert.Lstm.Ref

open Cert.ReferenceIdeal Cert.ReferenceIdeal.Gen Idealize.ShloMosaic Idealize.ShloMosaic.TcCoe Idealize.SL.Sem

/-- The hidden state the reference returns, as a function of the launch memory. -/
def hidden (m : (ℓ : Loc nD τ sig) → Buf (Elt Ideal) ℓ) (c : Dev nD) : Buf (Elt Ideal) ((c.tc : Thread nD τ).loc main_v34) :=
  fun i => Cert.Lstm.newA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0) (i 1)

/-- The cell state the reference returns. -/
def cell (m : (ℓ : Loc nD τ sig) → Buf (Elt Ideal) ℓ) (c : Dev nD) : Buf (Elt Ideal) ((c.tc : Thread nD τ).loc main_v32) :=
  fun i => Cert.Lstm.newC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (i 0) (i 1)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = hidden m c
      ∧ r.2.mem ((c.tc : Thread nD τ).loc main_v34) = hidden m c
      ∧ r.2.mem ((c.tc : Thread nD τ).loc main_v32) = cell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  have hA : ∀ c : Dev nD, Cert.ReferenceIdeal.Value.res_main_v34 m c = hidden m c := fun c =>
    (Cert.ReferenceIdeal.Read.val_main_v34_eq m c).trans (newA_eq _ _ _ _ _ _ _ _ _ _ _)
  refine (θ_run defs _ _).mono (fun r h c => ⟨(h c).1.trans (hA c), (h c).1.trans (hA c), (h c).2.2.1.trans ?_, (h c).2.2.2⟩)
    (Cert.ReferenceIdeal.Value.run (F := Ideal) m ρ)
  exact (Cert.ReferenceIdeal.Read.val_main_v32_eq _ _ _ _ _ _ _ _ _ _ _).trans (newC_eq _ _ _ _ _ _ _ _ _ _ _)

end Cert.Lstm.Ref

end
-- ==== Proof.lean ====
/-
  A single-step LSTM cell: a Pallas kernel tiled over the batch against the plain jnp cell.

  The kernel avoids joining x and a: it multiplies a block of 256 rows of x by the upper 1024 rows of the four
  weight matrices (set side by side into one [1024, 4096] array) and the same rows of a by the lower 1024 rows, adds the
  two products and the bias row, and applies the gates. The reference joins x and a into rows of 2048, multiplies by
  the four [2048, 1024] matrices set side by side, adds the bias and applies the gates, the sigmoid written out as
  1 / (1 + e^(-z)). On the extended reals both are one function of the argument arrays (Proof/Spec.lean): a sum over
  2048 positions is the sum over the first 1024 plus the sum over the last 1024, narrowing a float's format is the
  identity, a matrix product from a zero accumulator is the plain sum, and the written-out quotient is the sigmoid at
  every extended real. No step needs the inputs finite, so the precondition is never opened.

  The modules: Spec (the cell as one function, and the sum in two halves), Joins (arrays side by side read at an
  entry), Payload (what the kernel body stores, at an entry of its block), HostPrefix (the weight halves and the bias
  row the host prepares), Bridge (a block row is the specification's row), FrameIdeal / FrameBits (the kernel program
  runs to its end, faults nowhere, leaves its arguments unchanged and its output arrays at what the grid points wrote
  back, for either reading of the floats), Blocks (the 64 blocks written back are the 64 row blocks of the
  specification), RefSide and RefRun (the reference program's results are the specification).
-/
import proofs.«104022_j63737314673186_1_alg».proof.Defs
import proofs.«104022_j63737314673186_1_alg».proof.Proof.Gen.Kernel
import proofs.«104022_j63737314673186_1_alg».proof.Proof.Gen.KernelIdeal
import proofs.«104022_j63737314673186_1_alg».proof.Proof.Gen.ReferenceIdeal
import proofs.«104022_j63737314673186_1_alg».proof.Proof.Gen.ReferenceIdeal.Run
import proofs.«104022_j63737314673186_1_alg».proof.Proof.Gen.ReferenceIdeal.Read
import proofs.«104022_j63737314673186_1_alg».proof.Proof.Gen.Pre_finite_inputs
import proofs.«104022_j63737314673186_1_alg».proof.Proof.FrameBits
import proofs.«104022_j63737314673186_1_alg».proof.Proof.FrameIdeal
import proofs.«104022_j63737314673186_1_alg».proof.Proof.Blocks
import proofs.«104022_j63737314673186_1_alg».proof.Proof.RefRun

noncomputable section

namespace Cert.Proof

open Idealize.ShloMosaic Idealize.SL.Sem

/-- The kernel program as printed, floats read as words: it runs to its end and leaves its arguments unchanged. -/
theorem frame_kernel : Cert.frame_Kernel (hKernel := Cert.Kernel.Gen.facts) (hPre_finite_inputs := Cert.Pre_finite_inputs.Gen.facts) :=
  fun m ρ _ => Cert.Kernel.Fr.frame m ρ

/-- The same program with floats read as extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference program: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.Lstm.Ref.run m ρ)

/-- Both programs end with the hidden state (returned twice) and the cell state of the specification, of arguments
    that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.GA m c, fun c => Cert.KernelIdeal.Blocks.GA m c, fun c => Cert.KernelIdeal.Blocks.GC m c,
    (θ_run Cert.KernelIdeal.defs _ _).mono (fun r h c => ⟨(h c).1, (h c).1, (h c).2.1, (h c).2.2⟩) (Cert.KernelIdeal.Blocks.run m ρ), ?_⟩
  have hA : ∀ c, Cert.Lstm.Ref.hidden m' c = Cert.KernelIdeal.Blocks.GA m c := fun c => by
    obtain ⟨h0, h1, h2, h3, h4, h5, h6, h7, h8, h9, h10⟩ := hagree c
    unfold Cert.Lstm.Ref.hidden Cert.KernelIdeal.Blocks.GA
    rw [h0, h1, h2, h3, h4, h5, h6, h7, h8, h9, h10]
    rfl
  have hC : ∀ c, Cert.Lstm.Ref.cell m' c = Cert.KernelIdeal.Blocks.GC m c := fun c => by
    obtain ⟨h0, h1, h2, h3, h4, h5, h6, h7, h8, h9, h10⟩ := hagree c
    unfold Cert.Lstm.Ref.cell Cert.KernelIdeal.Blocks.GC
    rw [h0, h1, h2, h3, h4, h5, h6, h9, h10]
    rfl
  exact (θ_run Cert.ReferenceIdeal.defs _ _).mono
    (fun r h c => ⟨(h c).1.trans (hA c), (h c).2.1.trans (hA c), (h c).2.2.1.trans (hC c), (h c).2.2.2⟩) (Cert.Lstm.Ref.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
